-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S2x1x1 : Shape := ⟨3, ![2, 1, 1]⟩
abbrev S8192x128 : Shape := ⟨2, ![8192, 128]⟩
abbrev S1x1x1 : Shape := ⟨3, ![1, 1, 1]⟩
abbrev S1x1 : Shape := ⟨2, ![1, 1]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  inb_S8192x128_S1x1_0_0 : ∀ a, (![0, 0] : Fin 2 → Nat) a + S1x1.size a ≤ S8192x128.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S1 : Shape := ⟨1, ![1]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S33554432, .f32⟩
  | .hbm, ⟨4, _⟩ => ⟨S1, .f32⟩
  | .hbm, ⟨5, _⟩ => ⟨S_, .f32⟩
  | .hbm, ⟨6, _⟩ => ⟨S_, .f32⟩
  | .hbm, ⟨7, _⟩ => ⟨S_, .i1⟩
  | .hbm, ⟨8, _⟩ => ⟨S_, .f32⟩
  | .hbm, ⟨9, _⟩ => ⟨S_, .i1⟩
  | .hbm, ⟨10, _⟩ => ⟨S_, .i1⟩
  | .hbm, ⟨11, _⟩ => ⟨S_, .f32⟩
  | .hbm, ⟨12, _⟩ => ⟨S_, .i1⟩
  | .hbm, ⟨13, _⟩ => ⟨S_, .i1⟩
  | .hbm, ⟨14, _⟩ => ⟨S_, .f32⟩
  | .hbm, ⟨15, _⟩ => ⟨S_, .i1⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i32⟩
  | .hbm, ⟨21, _⟩ => ⟨S1, .i32⟩
  | .hbm, ⟨22, _⟩ => ⟨S33554432, .f32⟩
  | .hbm, ⟨23, _⟩ => ⟨S33554432, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  slices_S33554432_S1_0 : S33554432.Slices ![0] S1
  shapeCasts_S1_S_ : S1.ShapeCasts S_
  bcast_S_S1 : S_.BroadcastsInDim S1 (![] : Fin 0 → Fin S1.rank)
  reducesTo_S33554432_S_d0 : S33554432.ReducesTo [0] S_
  h_S_ : 0 < S_.numel
  scatter_S33554432_S1_S__n_0_0_0_wf : ScatterDims.WF S33554432 S1 S_ [] [0] [0] 0

variable [Facts₀]

def scatter_S33554432_S1_S__n_0_0_0 : ScatterDims S33554432 S1 S_ where
  updateWindowDims := []
  insertedWindowDims := [0]
  scatterDimsToOperandDims := [0]
  indexVectorDim := 0
  wf := scatter_S33554432_S1_S__n_0_0_0_wf

class Facts : Prop extends Facts₀ where

variable [Facts]
-- ==== Proof.SquaredError.lean ====
/-
  The quantity both programs compute, as a function of the two argument arrays x, y : f32[33554432] read as extended
  reals. Write d i = |x i - y i| (the larger of x i - y i and its negation) and let c be d 0 · 0.8 when d 0 is one of
  3, 4, 5, 6, and d 0 otherwise. The result is the mean over all i of d' i · d' i, where d' agrees with d except
  that d' 0 = c.

  The reference computes it in that form: one sum over all 33554432 positions of the corrected squares, divided by N.
  The kernel computes the uncorrected squares block by block — 32 blocks of 8192 rows of 128 lanes, the position of
  entry (r, l) of block t being (t · 8192 + r) · 128 + l —, accumulates the first 16 block sums into one partial and the
  last 16 into another, and adds the scalar correction c · c - d 0 · d 0 once, to the first partial before its first
  block sum; the two partials are added and divided by N. This module names both forms; that they agree (when x 0 and y 0
  are real numbers, so that d 0 · d 0 cancels) is proved in the algebra module.
-/
import Idealize.ShloMosaic.PureOps.Ideal
import Idealize.ShloMosaic.Lib.ValueIdx

noncomputable section

namespace Cert.SquaredError

open Idealize.ShloMosaic Idealize.ShloMosaic.ValueIdx

/-- The arrays' shape and the number of positions. -/
abbrev SN : Shape := ⟨1, ![33554432]⟩

/-- Position 0. -/
abbrev i0 : SN.Idx := ix1 ⟨0, by decide⟩

/-- |a - b| on the extended reals. -/
def dist (a b : EReal) : EReal := max (a - b) (-(a - b))

/-- Whether a distance is one of 3, 4, 5, 6 (as a one-bit word: the disjunction of four ordered-equal comparisons). -/
def hit (d : EReal) : BitVec 1 :=
  IntOp.ori (IntOp.ori (IntOp.ori (Ideal.cmp .oeq d (Ideal.ofBits .f32 0x40400000#32)) (Ideal.cmp .oeq d (Ideal.ofBits .f32 0x40800000#32)))
    (Ideal.cmp .oeq d (Ideal.ofBits .f32 0x40A00000#32))) (Ideal.cmp .oeq d (Ideal.ofBits .f32 0x40C00000#32))

/-- The corrected distance: scaled by the f32 nearest 0.8 on a hit, unchanged otherwise. -/
def corrected (d : EReal) : EReal := Scalar.select (hit d) (d * Ideal.ofBits .f32 0x3F4CCCCD#32) d

/-- The distance at position 0. -/
def d0 (x y : SN.Idx → EReal) : EReal := dist (x i0) (y i0)

/-- The uncorrected square at a position. -/
def sqd (x y : SN.Idx → EReal) (i : SN.Idx) : EReal := dist (x i) (y i) * dist (x i) (y i)

/-- The corrected square at a position: position 0 uses the corrected distance. -/
def sqd' (x y : SN.Idx → EReal) (i : SN.Idx) : EReal :=
  if i = i0 then corrected (d0 x y) * corrected (d0 x y) else sqd x y i

/-- The scalar correction the kernel adds once. -/
def corr (x y : SN.Idx → EReal) : EReal := corrected (d0 x y) * corrected (d0 x y) - d0 x y * d0 x y

/-- The position of lane `l` of row `r` of block `t` (reduced mod N so that it is a position for all numbers; for
    t < 32, r < 8192, l < 128 the remainder is the number itself). -/
def flat (t r l : ℕ) : SN.Idx := ix1 ⟨((t * 8192 + r) * 128 + l) % 33554432, Nat.mod_lt _ (by decide)⟩

/-- The sum of the uncorrected squares over block `t`: rows, then lanes. -/
def bsum (x y : SN.Idx → EReal) (t : ℕ) : EReal := ∑ r : Fin 8192, ∑ l : Fin 128, sqd x y (flat t r.val l.val)

/-- The kernel's accumulator after grid point `n`: reset to zero at the first point of each half (n divisible by 16),
    the correction added at the very first point, then the point's block sum added. -/
def acc (x y : SN.Idx → EReal) : ℕ → EReal
  | 0 => ((0 : EReal) + corr x y) + bsum x y 0
  | n + 1 => if (n + 1) % 16 = 0 then (0 : EReal) + bsum x y (n + 1) else acc x y n + bsum x y (n + 1)

/-- The kernel's total: zero plus the two partials (the accumulator after points 15 and 31). -/
def kernelTotal (x y : SN.Idx → EReal) : EReal := (0 : EReal) + (acc x y 15 + acc x y 31)

/-- The reference's total: zero plus the sum of the corrected squares over all positions. -/
def total (x y : SN.Idx → EReal) : EReal := (0 : EReal) + ∑ i : SN.Idx, sqd' x y i

/-- The mean: the total divided by N = 2^25 (the f32 word 0x4C000000). -/
def mean (x y : SN.Idx → EReal) : EReal := Ideal.div (total x y) (Ideal.ofBits .f32 0x4C000000#32)

end Cert.SquaredError

end
-- ==== Proof.LibScatterSetFirst.lean ====
/-
  A scatter that SETS one scalar into a vector at the constant position 0 (jax's `v.at[0].set(u)`): the host operation
  folds over the update's indices, and a rank-0 update has exactly one; its landing index is the start index read off the
  scatter indices (here the word 0, so position 0) plus the window coordinate (0: the vector's one axis is an inserted
  window axis). So the result agrees with the operand everywhere except at position 0, where it holds the update.
  Stated for any element type and any positive length.
-/
import Idealize.ShloMosaic.PureOps.Ideal
import Idealize.ShloMosaic.Lib.ValueIdx

noncomputable section

namespace Cert.Lib

open Idealize.ShloMosaic Idealize.ShloMosaic.ValueIdx

/-- The scalar update set into a length-`N` vector at the scatter index `0`: position 0 holds the update, every other
    position the operand's entry. -/
theorem scatter_set_first {α : Type} {N : Nat} (hN : 0 < N)
    (d : ScatterDims ⟨1, ![N]⟩ ⟨1, ![1]⟩ ⟨0, ![]⟩)
    (hins : d.insertedWindowDims = [0]) (_hmap : d.scatterDimsToOperandDims = [0])
    (x : (⟨1, ![N]⟩ : Shape).Idx → α) (idx : IVec ⟨1, ![1]⟩ 32) (hidx : ∀ k, idx k = 0#32)
    (u : (⟨0, ![]⟩ : Shape).Idx → α) (i : (⟨1, ![N]⟩ : Shape).Idx) :
    Host.scatter d (fun _ b => b) x idx u i = if i = ix1 ⟨0, hN⟩ then u ix0 else x i := by
  unfold Host.scatter
  -- the update has one index
  have hl : List.finRange (⟨0, ![]⟩ : Shape).numel = [(⟨0, (Nat.one_pos : 0 < 1)⟩ : Fin (⟨0, ![]⟩ : Shape).numel)] := rfl
  rw [hl]
  simp only [List.foldl_cons, List.foldl_nil]
  -- its start is the index word read signed: 0
  have hs : ∀ a, d.start ((⟨0, ![]⟩ : Shape).rowMajor.symm ⟨0, (Nat.one_pos : 0 < 1)⟩) idx a = 0 := by
    intro a
    unfold ScatterDims.start
    split
    · rw [hidx]; rfl
    · rfl
  -- its window coordinate is 0: the one axis is inserted, not a window axis
  have hw : ∀ a, d.window ((⟨0, ![]⟩ : Shape).rowMajor.symm ⟨0, (Nat.one_pos : 0 < 1)⟩) a = 0 := by
    intro a
    unfold ScatterDims.window
    rw [dif_neg]
    show a ∉ Shape.kept _ d.insertedWindowDims
    rw [hins]
    match a with
    | ⟨0, _⟩ => simp [Shape.kept]
  -- so it lands at position 0, inside the vector
  have hr : d.resultIdx? ((⟨0, ![]⟩ : Shape).rowMajor.symm ⟨0, (Nat.one_pos : 0 < 1)⟩) idx = some (ix1 ⟨0, hN⟩) := by
    unfold ScatterDims.resultIdx?
    rw [dif_pos (by
      intro a; rw [hs, hw]
      match a with
      | ⟨0, _⟩ => exact ⟨le_refl _, by show ((0 : Int) + ((0 : Nat) : Int)) < ((N : Nat) : Int); omega⟩)]
    congr 1
    funext a
    match a with
    | ⟨0, _⟩ => apply Fin.ext; show (d.start _ idx _ + (d.window _ _ : Int)).toNat = 0; rw [hs, hw]; rfl
  rw [hr]
  rw [eq_ix0 ((⟨0, ![]⟩ : Shape).rowMajor.symm ⟨0, (Nat.one_pos : 0 < 1)⟩)]

end Cert.Lib

end
-- ==== Proof.RefIsMean.lean ====
/-
  The reference program's result, read at the extended reals, is the mean of the corrected squares.
  Stage by stage: the difference and its absolute value give d; the slice [0:1] and the reshape to a scalar read d at
  position 0 (a length-1 axis has one position); the four comparisons, their disjunction, the product with 0.8 and the
  select give the corrected distance c; the scatter sets c into d at position 0 and changes nothing else; the square,
  the sum from zero over all positions and the division by N are the mean as the specification spells it.
-/
import proofs.«122837_j31714038514005_2_alg».proof.Proof.Gen.ReferenceIdeal.Read
import proofs.«122837_j31714038514005_2_alg».proof.Proof.SquaredError
import proofs.«122837_j31714038514005_2_alg».proof.Proof.LibScatterSetFirst

noncomputable section

namespace Cert.RefIsMean

open Idealize.ShloMosaic Idealize.ShloMosaic.ValueIdx
open Cert.ReferenceIdeal Cert.ReferenceIdeal.Gen Cert.ReferenceIdeal.Read Cert.SquaredError

variable (x y : S33554432.Idx → Ideal .f32)

/-- A length-1 axis has one position. -/
theorem idx1_eq (j : S1.Idx) : j = ix1 ⟨0, by decide⟩ := by
  funext a
  match a with
  | ⟨0, _⟩ => exact Fin.ext (by have h : (j 0).val < 1 := (j 0).isLt; show (j 0).val = 0; omega)

/-- The absolute difference at a position is the specification's distance there. -/
theorem abs_apply (i : S33554432.Idx) : val_main_v1 (F := Ideal) x y i = dist (x i) (y i) := rfl

/-- The scalar read off position 0 (slice, then reshape to rank 0) is the distance at position 0. -/
theorem first_apply (i : S_.Idx) : val_main_v3 (F := Ideal) x y i = d0 x y := by
  show val_main_v2 (F := Ideal) x y (Shape.reshapeEquiv shapeCasts_S1_S_ i) = _
  rw [idx1_eq (Shape.reshapeEquiv shapeCasts_S1_S_ i), val_main_v2_apply]
  have e : idx_main_v2 (ix1 ⟨0, by decide⟩) = i0 := by
    funext a
    match a with
    | ⟨0, _⟩ => rfl
  rw [e, abs_apply]
  rfl

/-- The selected scalar is the corrected distance. -/
theorem corrected_apply (i : S_.Idx) : val_main_v12 (F := Ideal) x y i = corrected (d0 x y) := by
  rw [val_main_v12_apply, val_main_v10_apply, val_main_v8_apply, val_main_v6_apply, val_main_v4_apply, val_main_v5_apply,
    val_main_v7_apply, val_main_v9_apply, val_main_v11_apply, first_apply]
  rfl

/-- The scatter index is the word 0. -/
theorem index_apply (k : S1.Idx) : val_main_v13 (F := Ideal) k = 0#32 := by
  rw [val_main_v13_apply, val_main_c_apply]

/-- After the scatter: position 0 holds the corrected distance, every other position its own distance. -/
theorem scattered_apply (i : S33554432.Idx) :
    val_main_v14 (F := Ideal) x y i = if i = i0 then corrected (d0 x y) else dist (x i) (y i) := by
  unfold val_main_v14
  rw [Cert.Lib.scatter_set_first (by decide) scatter_S33554432_S1_S__n_0_0_0 rfl rfl _ _ (index_apply) _ i, corrected_apply]
  rfl

/-- The squared entry is the corrected square. -/
theorem square_apply (i : S33554432.Idx) : val_main_v15 (F := Ideal) x y i = sqd' x y i := by
  rw [val_main_v15_apply, scattered_apply]
  unfold sqd' sqd
  by_cases h : i = i0
  · rw [if_pos h, if_pos h]; rfl
  · rw [if_neg h, if_neg h]; rfl

/-- The reference's result is the mean. -/
theorem result_eq : val_main_v17 (F := Ideal) x y = fun _ => mean x y := by
  funext i
  rw [val_main_v17_apply, val_main_v16_apply, val_main_cst_5_apply, val_main_cst_4_apply]
  simp only [square_apply]
  show Ideal.div (Ideal.ofBits .f32 0x00000000#32 + ∑ j : S33554432.Idx, sqd' x y j) (Ideal.ofBits .f32 0x4C000000#32) = _
  rw [Ideal.ofBits_zero_f32]
  rfl

end Cert.RefIsMean

end
-- ==== Proof.CasePieces.lean ====
/-
  What one run of the kernel body leaves in the accumulator (the [1,1] scratch it carries from grid point to grid
  point) and in the output block, case by case, as pure functions of the two input blocks X0, X1 : [8192,128] and of
  the accumulator's previous contents s. The body's stores are three payloads: `zero` (the reset), `s + correction` of
  the blocks' top-left entries, and `s + the block's sum of squared absolute differences`; a fourth re-lays the
  accumulator as the [1,1,1] output block.
    first point of the grid      : reset, then the correction, then the block sum      (three stores, each reading the last)
    first point of the second half: reset, then the block sum
    an interior point            : the block sum added to what the point before left
    last point of a half         : the same, and the output block is the accumulator just written
  Each store covers the whole [1,1] buffer, so the last store's payload is what the buffer holds, and a load after a
  store reads that store's payload. True at every float instance.
-/
import proofs.«122837_j31714038514005_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.CasePieces

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The [1,1] block at the top-left corner of an [8192,128] block. -/
def corner (X : Vec F S8192x128 .f32) : Vec F S1x1 .f32 :=
  View.ld X (Rect.unit ![0, 0] ![1, 1] inb_S8192x128_S1x1_0_0)

/-- An interior point: the accumulator holding `s` ends at `s` plus the block sum. -/
theorem scratch_B (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i) (hc2 : ¬cond0_2 i) (x0 x1 : Vec F S8192x128 .f32) (xs0 : Vec F S1x1 .f32) :
    sout0_B_0 c i arg2 harg2 arg3 harg3 arg4 harg4 arg5 harg5 hc0 hc1 hc2 x0 x1 xs0 = k0_pay3 x0 x1 xs0 := by
  unfold sout0_B_0
  rw [View.read_writes_eq_canon _ _ _ (scover0_B_0 c i arg2 harg2 arg3 harg3 arg4 harg4 arg5 harg5 hc0 hc1 hc2 x0 x1 xs0)]
  unfold kernelRun0_B
  dsimp only
  rw [View.canon_unit_zero hz]
  simp only [View.readAt_eq_ld, harg2.read_unread, harg3.read_unread, harg5.read_unread, View.ld_unit_zero (S := S8192x128) hz, View.ld_unit_zero (S := S1x1) hz]

/-- The last point of a half: the accumulator likewise, -/
theorem scratch_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i) (hc2 : cond0_2 i) (x0 x1 : Vec F S8192x128 .f32) (xs0 : Vec F S1x1 .f32) :
    sout0_C_0 c i arg2 harg2 arg3 harg3 arg4 harg4 arg5 harg5 hc0 hc1 hc2 x0 x1 xs0 = k0_pay3 x0 x1 xs0 := by
  unfold sout0_C_0
  rw [View.read_writes_eq_canon _ _ _ (scover0_C_0 c i arg2 harg2 arg3 harg3 arg4 harg4 arg5 harg5 hc0 hc1 hc2 x0 x1 xs0)]
  unfold kernelRun0_C
  dsimp only
  sl_unfold_words
  rw [View.canon_unit_zero hz]
  simp only [View.readAt_eq_ld, harg2.read_unread, harg3.read_unread, harg5.read_unread, View.ld_unit_zero (S := S8192x128) hz, View.ld_unit_zero (S := S1x1) hz]

/-- and the output block is that accumulator re-laid as [1,1,1]. -/
theorem out_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i) (hc2 : cond0_2 i) (x0 x1 : Vec F S8192x128 .f32) (xs0 : Vec F S1x1 .f32) :
    out0_C_2 c i arg2 harg2 arg3 harg3 arg4 harg4 arg5 harg5 hc0 hc1 hc2 x0 x1 xs0 = k0_pay4 (k0_pay3 x0 x1 xs0) := by
  unfold out0_C_2
  rw [View.read_writes_eq_canon _ _ _ (cover0_C_2 c i arg2 harg2 arg3 harg3 arg4 harg4 arg5 harg5 hc0 hc1 hc2 x0 x1 xs0)]
  unfold kernelRun0_C
  dsimp only
  sl_unfold_words
  rw [View.canon_unit_zero hz3, View.readCov_unit_zero (S := S1x1) _ hz]
  simp only [View.readAt_eq_ld, harg2.read_unread, harg3.read_unread, harg5.read_unread, View.ld_unit_zero (S := S8192x128) hz, View.ld_unit_zero (S := S1x1) hz]

/-- The first point of the second half: reset, then the block sum. -/
theorem scratch_D (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i) (hc2 : ¬cond0_2 i) (x0 x1 : Vec F S8192x128 .f32) :
    sout0_D_0 c i arg2 harg2 arg3 harg3 arg4 harg4 arg5 harg5 hc0 hc1 hc2 x0 x1 = k0_pay3 x0 x1 k0_pay1 := by
  unfold sout0_D_0
  rw [View.read_writes_eq_canon _ _ _ (scover0_D_0 c i arg2 harg2 arg3 harg3 arg4 harg4 arg5 harg5 hc0 hc1 hc2 x0 x1)]
  unfold kernelRun0_D
  dsimp only
  sl_unfold_words
  rw [View.canon_cons_unit_zero (S := S1x1) hz, View.readCov_unit_zero (S := S1x1) _ hz]
  simp only [View.readAt_eq_ld, harg2.read_unread, harg3.read_unread, harg5.read_unread, View.ld_unit_zero (S := S8192x128) hz, View.ld_unit_zero (S := S1x1) hz]

/-- The first point of the grid: reset, then the correction of the corner entries, then the block sum. -/
theorem scratch_A (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : cond0_1 i) (hc2 : ¬cond0_2 i) (x0 x1 : Vec F S8192x128 .f32) :
    sout0_A_0 c i arg2 harg2 arg3 harg3 arg4 harg4 arg5 harg5 hc0 hc1 hc2 x0 x1 = k0_pay3 x0 x1 (k0_pay2 (corner x0) (corner x1) k0_pay1) := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_cons_unit_zero (S := S1x1) hz]
  simp only [View.readCov_cons_toLoadRect]
  simp only [View.readAt_eq_ld, harg2.read_unread, harg3.read_unread, View.ld_unit_zero (S := S8192x128) hz, View.ld_unit_zero (S := S1x1) hz]
  rfl

end Cert.CasePieces

end
-- ==== Proof.PayloadReads.lean ====
/-
  The kernel body's four stored values, read entry by entry at the extended reals.
    the reset           : 0
    the block sum       : s + ∑ over rows r, ∑ over lanes l of |X0 (r,l) - X1 (r,l)|², where the body sums the lanes of each
                          row first ([8192,128] → [8192], kept as a column [8192,1]), then the rows ([8192,1] → [1], kept
                          as [1,1]); re-laying a vector as a column, or a [1] as a [1,1], moves no entry
    the correction      : s + (c · c - d · d) with d = |a - b| of the two corner entries and c its corrected value
    the output block    : the accumulator's one entry, re-laid as [1,1,1]
  A [1,1] or [1,1,1] block has one entry, so these hold at every index of the block.
-/
import proofs.«122837_j31714038514005_2_alg».proof.Proof.CasePieces
import proofs.«122837_j31714038514005_2_alg».proof.Proof.SquaredError
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.PayloadReads

open Cert.KernelIdeal Cert.KernelIdeal.Gen Cert.SquaredError Cert.CasePieces

/-- Every index of a [1,1] block has row-major position 0. -/
theorem rowMajor_1x1 (j : S1x1.Idx) : (S1x1.rowMajor j).val = 0 := by
  rw [Shape.rowMajor_val_two]
  have h0 : (j 0).val < 1 := (j 0).isLt
  have h1 : (j 1).val < 1 := (j 1).isLt
  show (j 0).val * 1 + (j 1).val = 0
  omega

/-- Every index of a [1,1,1] block has row-major position 0. -/
theorem rowMajor_1x1x1 (i : S1x1x1.Idx) : (S1x1x1.rowMajor i).val = 0 := by
  rw [Shape.rowMajor_val_three]
  have h0 : (i 0).val < 1 := (i 0).isLt
  have h1 : (i 1).val < 1 := (i 1).isLt
  have h2 : (i 2).val < 1 := (i 2).isLt
  show ((i 0).val * 1 + (i 1).val) * 1 + (i 2).val = 0
  omega

/-- The sum over the lanes of each row, kept as a column, then over the rows, kept as a [1,1] block, is the double sum
    over rows and lanes. -/
theorem blocksum_apply (Y : FVec Ideal S8192x128 .f32)
    (hφ1 : FKind.Formats .f32) (hacc1 : (0x00000000#32 : BitVec 32) = FKind.add.neutral .f32 hφ1)
    (hφ0 : FKind.Formats .f32) (hacc0 : (0x00000000#32 : BitVec 32) = FKind.add.neutral .f32 hφ0)
    (j : S1x1.Idx) :
    shapeCast S1x1 (multiReduction .add [0] S1 (shapeCast S8192x1 (multiReduction .add [1] S8192 Y 0x00000000#32 reduces_S8192x128_S8192 hφ1 hacc1) shapeCasts_S8192_S8192x1) 0x00000000#32 reduces_S8192x1_S1 hφ0 hacc0) shapeCasts_S1_S1x1 j
      = ∑ r : Fin 8192, ∑ l : Fin 128, Y (ix2 r l) := by
  refine (shapeCast_apply _ shapeCasts_S1_S1x1 j (ix1 (⟨0, by decide⟩ : Fin 1)) (by rw [rowMajor_1x1]; exact Shape.rowMajor_val_one _)).trans ?_
  refine (Ideal.multiReduction_add_single _ 0x00000000#32 reduces_S8192x1_S1 hφ0 hacc0 _).trans ?_
  show ∑ r : Fin 8192, _ = _
  refine Finset.sum_congr rfl fun r _ => ?_
  refine (shapeCast_apply _ shapeCasts_S8192_S8192x1 _ (ix1 r) (by
    rw [Shape.rowMajor_val_one, Shape.rowMajor_val_two]
    show r.val = r.val * 1 + 0
    omega)).trans ?_
  refine (Ideal.multiReduction_add_single Y 0x00000000#32 reduces_S8192x128_S8192 hφ1 hacc1 (ix1 r)).trans ?_
  show ∑ l : Fin 128, _ = _
  refine Finset.sum_congr rfl fun l _ => ?_
  exact congrArg Y (funext fun a => match a with
    | ⟨0, _⟩ => rfl
    | ⟨1, _⟩ => rfl)

/-- The reset stores zero. -/
theorem reset_apply (j : S1x1.Idx) : k0_pay1 (F := Ideal) j = 0 := by
  unfold k0_pay1
  simp only [shapeCast_self]
  exact Ideal.ofBits_zero_f32

/-- The accumulator `s` plus the block's sum of squared absolute differences. -/
theorem blockstep_apply (X0 X1 : FVec Ideal S8192x128 .f32) (s : FVec Ideal S1x1 .f32) (j : S1x1.Idx) :
    k0_pay3 (F := Ideal) X0 X1 s j
      = s j + ∑ r : Fin 8192, ∑ l : Fin 128, dist (X0 (ix2 r l)) (X1 (ix2 r l)) * dist (X0 (ix2 r l)) (X1 (ix2 r l)) := by
  unfold k0_pay3
  simp only [shapeCast_self]
  refine (addf_apply _ _ j).trans ?_
  congr 1
  exact blocksum_apply _ (.inl rfl) rfl (.inl rfl) rfl j

/-- The accumulator `s` plus the correction of the two corner entries `a`, `b`. -/
theorem correction_apply (a b s : FVec Ideal S1x1 .f32) (j : S1x1.Idx) :
    k0_pay2 (F := Ideal) a b s j
      = s j + (corrected (dist (a j) (b j)) * corrected (dist (a j) (b j)) - dist (a j) (b j) * dist (a j) (b j)) := by
  unfold k0_pay2
  simp only [shapeCast_self]
  rfl

/-- The output block's one entry is the accumulator's one entry. -/
theorem outblock_apply (s : FVec Ideal S1x1 .f32) (i : S1x1x1.Idx) (j : S1x1.Idx) : k0_pay4 (F := Ideal) s i = s j := by
  unfold k0_pay4
  exact shapeCast_apply s shapeCasts_S1x1_S1x1x1 i j (by rw [rowMajor_1x1, rowMajor_1x1x1])

/-- The corner block's one entry is the block's entry (0, 0). -/
theorem corner_apply (X : FVec Ideal S8192x128 .f32) (j : S1x1.Idx) :
    corner (F := Ideal) X j = X (ix2 ⟨0, by decide⟩ ⟨0, by decide⟩) := by
  unfold corner View.ld
  refine congrArg X (funext fun a => ?_)
  match a with
  | ⟨0, _⟩ => exact Fin.ext (by have h : (j 0).val < 1 := (j 0).isLt; show 0 + 1 * (j 0).val = 0; omega)
  | ⟨1, _⟩ => exact Fin.ext (by have h : (j 1).val < 1 := (j 1).isLt; show 0 + 1 * (j 1).val = 0; omega)

end Cert.PayloadReads

end
-- ==== Proof.InputBlocks.lean ====
/-
  The two input windows' blocks as entries of the argument arrays. Before the region the host reshapes each argument
  x : [33554432] to [262144,128] (row-major: entry (R, l) is x at R · 128 + l). Window w's block at grid point t is rows
  t · 8192 … t · 8192 + 8191 of that array (its index map sends the point (p, k) = (t / 16, t mod 16) to block row
  p · 16 + k = t), so entry (r, l) of the block is x at (t · 8192 + r) · 128 + l.
-/
import proofs.«122837_j31714038514005_2_alg».proof.Proof.Gen.KernelIdeal.Frame
import proofs.«122837_j31714038514005_2_alg».proof.Proof.SquaredError
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx Idealize.ShloMosaic.StableHlo

namespace Cert.InputBlocks

open Cert.KernelIdeal Cert.KernelIdeal.Gen Cert.SquaredError

variable (m : (ℓ : Loc nD τ sig) → Buf (Elt Ideal) ℓ)

/-- What the region finds in window 0's array: the host's reshape of argument 0 to [262144,128]. -/
theorem entry_v0 (c : Dev nD) : (V m c main_v0 : S262144x128.Idx → EReal)
    = shapeCast S262144x128 (m ((c : Thread nD τ).loc main_arg0)) shapeCasts_S33554432_S262144x128 := by
  show StableHlo.after hostOps0 (fun b => m (c, b)) (Proc.devRef .tc main_v0) = _
  after_results; rfl

/-- Window 0's index map sends grid point t to block row t, block column 0 (decided once over the 32 points). -/
theorem index_w0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry (r, l) of window 0's block at grid point t is argument 0 at position (t · 8192 + r) · 128 + l. -/
theorem block0_apply (c : Dev nD) (t : Fin cfg0.N) (r : Fin 8192) (l : Fin 128) :
    (iblk m c 0 t : S8192x128.Idx → EReal) (ix2 r l) = m ((c : Thread nD τ).loc main_arg0) (flat t.val r.val l.val) := by
  have hN : t.val < 32 := lt_of_lt_of_eq t.isLt (show cfg0.N = 32 from N_0)
  have hr : r.val < 8192 := r.isLt
  have hl : l.val < 128 := l.isLt
  unfold iblk
  rw [View.read_apply]
  show V m c main_v0 (((cfg0.win 0).blk t).view.emb (ix2 r l)) = _
  refine (congrFun (entry_v0 m c) _).trans ?_
  refine shapeCast_apply _ shapeCasts_S33554432_S262144x128 _ (flat t.val r.val l.val) ?_
  rw [Shape.rowMajor_val_one, Shape.rowMajor_val_two]
  show ((t.val * 8192 + r.val) * 128 + l.val) % 33554432
    = (win0_0.index t 0 * 8192 + 1 * r.val) * 128 + (win0_0.index t 1 * 128 + 1 * l.val)
  rw [(index_w0 t).1, (index_w0 t).2, Nat.mod_eq_of_lt (by omega)]
  omega

/-- What the region finds in window 1's array: the host's reshape of argument 1 to [262144,128]. -/
theorem entry_v1 (c : Dev nD) : (V m c main_v1 : S262144x128.Idx → EReal)
    = shapeCast S262144x128 (m ((c : Thread nD τ).loc main_arg1)) shapeCasts_S33554432_S262144x128 := by
  show StableHlo.after hostOps0 (fun b => m (c, b)) (Proc.devRef .tc main_v1) = _
  after_results; rfl

/-- Window 1's index map sends grid point t to block row t, block column 0 (decided once over the 32 points). -/
theorem index_w1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry (r, l) of window 1's block at grid point t is argument 1 at position (t · 8192 + r) · 128 + l. -/
theorem block1_apply (c : Dev nD) (t : Fin cfg0.N) (r : Fin 8192) (l : Fin 128) :
    (iblk m c 1 t : S8192x128.Idx → EReal) (ix2 r l) = m ((c : Thread nD τ).loc main_arg1) (flat t.val r.val l.val) := by
  have hN : t.val < 32 := lt_of_lt_of_eq t.isLt (show cfg0.N = 32 from N_0)
  have hr : r.val < 8192 := r.isLt
  have hl : l.val < 128 := l.isLt
  unfold iblk
  rw [View.read_apply]
  show V m c main_v1 (((cfg0.win 1).blk t).view.emb (ix2 r l)) = _
  refine (congrFun (entry_v1 m c) _).trans ?_
  refine shapeCast_apply _ shapeCasts_S33554432_S262144x128 _ (flat t.val r.val l.val) ?_
  rw [Shape.rowMajor_val_one, Shape.rowMajor_val_two]
  show ((t.val * 8192 + r.val) * 128 + l.val) % 33554432
    = (win0_1.index t 0 * 8192 + 1 * r.val) * 128 + (win0_1.index t 1 * 128 + 1 * l.val)
  rw [(index_w1 t).1, (index_w1 t).2, Nat.mod_eq_of_lt (by omega)]
  omega

end Cert.InputBlocks

end
-- ==== Proof.Accumulate.lean ====
/-
  The accumulator the kernel carries across the grid, point by point. With x, y the two arguments on a device:
    after point 0 it holds (0 + correction) + block sum 0;
    after the first point of the second half (point 16) it holds 0 + block sum 16;
    after any other point t it holds what point t - 1 left plus block sum t;
  which is the specification's recursion `acc`, by induction on the point. At the last point of each half (t = 15, 31)
  the output block is written from the accumulator, so it holds `acc t`.
  A block's sum of squares is the specification's block sum because entry (r, l) of the block at point t is the
  argument's entry at position (t · 8192 + r) · 128 + l; the corner entry of block 0 is position 0.
-/
import proofs.«122837_j31714038514005_2_alg».proof.Proof.PayloadReads
import proofs.«122837_j31714038514005_2_alg».proof.Proof.InputBlocks

noncomputable section

open Idealize.ShloMosaic Idealize.ShloMosaic.TcCoe Idealize.SL.Sem Idealize.ShloMosaic.ValueIdx

namespace Cert.Accumulate

open Cert.KernelIdeal Cert.KernelIdeal.Gen Cert.SquaredError Cert.CasePieces Cert.PayloadReads Cert.InputBlocks

variable (m : (ℓ : Loc nD τ sig) → Buf (Elt Ideal) ℓ)

/-- The two arguments on device `c`. -/
abbrev argX (c : Dev nD) : SN.Idx → EReal := m ((c : Thread nD τ).loc main_arg0)
abbrev argY (c : Dev nD) : SN.Idx → EReal := m ((c : Thread nD τ).loc main_arg1)

/-- The block step at grid point `t`: the accumulator `s` plus the specification's block sum `t`. -/
theorem blockstep_at (c : Dev nD) (t : Fin cfg0.N) (s : FVec Ideal S1x1 .f32) (j : S1x1.Idx) :
    k0_pay3 (F := Ideal) (iblk m c 0 t) (iblk m c 1 t) s j = s j + bsum (argX m c) (argY m c) t.val := by
  refine (blockstep_apply (iblk m c 0 t) (iblk m c 1 t) s j).trans ?_
  refine congrArg (s j + ·) ?_
  show _ = ∑ r : Fin 8192, ∑ l : Fin 128, sqd (argX m c) (argY m c) (flat t.val r.val l.val)
  refine Finset.sum_congr rfl fun r _ => ?_
  refine Finset.sum_congr rfl fun l _ => ?_
  rw [block0_apply m c t r l, block1_apply m c t r l]
  rfl

/-- An interior point adds its block sum to what the point before left. -/
theorem step_B (c : Dev nD) (t : Fin cfg0.N) (h0 : ¬t.val % 16 = 0) (h1 : ¬t.val % 32 = 0) (h2 : ¬t.val % 16 = 15) (j : S1x1.Idx) :
    (outsAt0 m c t.val t.isLt).2 j = (outsAt0 m c (t.val - 1) (Nat.lt_of_le_of_lt (Nat.sub_le _ _) t.isLt)).2 j + bsum (argX m c) (argY m c) t.val := by
  rw [outsAt0_B m c t h0 h1 h2]
  dsimp only
  refine (congrFun (scratch_B c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (fun h => h2 ((hcond0_2 t).mp h))
    (iblk m c 0 t) (iblk m c 1 t) (outsAt0 m c (t.val - 1) (Nat.lt_of_le_of_lt (Nat.sub_le _ _) t.isLt)).2) j).trans ?_
  exact blockstep_at m c t _ j

/-- So does the last point of a half, -/
theorem step_C (c : Dev nD) (t : Fin cfg0.N) (h0 : ¬t.val % 16 = 0) (h1 : ¬t.val % 32 = 0) (h2 : t.val % 16 = 15) (j : S1x1.Idx) :
    (outsAt0 m c t.val t.isLt).2 j = (outsAt0 m c (t.val - 1) (Nat.lt_of_le_of_lt (Nat.sub_le _ _) t.isLt)).2 j + bsum (argX m c) (argY m c) t.val := by
  rw [outsAt0_C m c t h0 h1 h2]
  dsimp only
  refine (congrFun (scratch_C c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) ((hcond0_2 t).mpr h2)
    (iblk m c 0 t) (iblk m c 1 t) (outsAt0 m c (t.val - 1) (Nat.lt_of_le_of_lt (Nat.sub_le _ _) t.isLt)).2) j).trans ?_
  exact blockstep_at m c t _ j

/-- where the output block's entry is the accumulator's entry just written. -/
theorem out_at_C (c : Dev nD) (t : Fin cfg0.N) (h0 : ¬t.val % 16 = 0) (h1 : ¬t.val % 32 = 0) (h2 : t.val % 16 = 15)
    (i : S1x1x1.Idx) (j : S1x1.Idx) :
    (outsAt0 m c t.val t.isLt).1 i = (outsAt0 m c t.val t.isLt).2 j := by
  rw [outsAt0_C m c t h0 h1 h2]
  dsimp only
  refine (congrFun (out_C c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) ((hcond0_2 t).mpr h2)
    (iblk m c 0 t) (iblk m c 1 t) (outsAt0 m c (t.val - 1) (Nat.lt_of_le_of_lt (Nat.sub_le _ _) t.isLt)).2) i).trans ?_
  refine (outblock_apply _ i j).trans ?_
  exact (congrFun (scratch_C c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) ((hcond0_2 t).mpr h2)
    (iblk m c 0 t) (iblk m c 1 t) (outsAt0 m c (t.val - 1) (Nat.lt_of_le_of_lt (Nat.sub_le _ _) t.isLt)).2) j).symm

/-- The first point of the second half resets, then adds its block sum. -/
theorem step_D (c : Dev nD) (t : Fin cfg0.N) (h0 : t.val % 16 = 0) (h1 : ¬t.val % 32 = 0) (h2 : ¬t.val % 16 = 15) (j : S1x1.Idx) :
    (outsAt0 m c t.val t.isLt).2 j = (0 : EReal) + bsum (argX m c) (argY m c) t.val := by
  rw [outsAt0_D m c t h0 h1 h2]
  dsimp only
  refine (congrFun (scratch_D c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (fun h => h2 ((hcond0_2 t).mp h))
    (iblk m c 0 t) (iblk m c 1 t)) j).trans ?_
  refine (blockstep_at m c t _ j).trans ?_
  rw [reset_apply]

/-- Block 0's corner entries are the arguments at position 0. -/
theorem flat_zero : flat 0 0 0 = i0 := by
  unfold flat
  exact congrArg (ix1 (n := 33554432)) (Fin.ext (by decide))

/-- The first point of the grid resets, adds the correction of position 0, then its block sum. -/
theorem step_A (c : Dev nD) (t : Fin cfg0.N) (h0 : t.val % 16 = 0) (h1 : t.val % 32 = 0) (h2 : ¬t.val % 16 = 15) (j : S1x1.Idx) :
    (outsAt0 m c t.val t.isLt).2 j = ((0 : EReal) + corr (argX m c) (argY m c)) + bsum (argX m c) (argY m c) t.val := by
  have hN : t.val < 32 := lt_of_lt_of_eq t.isLt (show cfg0.N = 32 from N_0)
  have ht : t.val = 0 := by omega
  rw [outsAt0_A m c t h0 h1 h2]
  dsimp only
  refine (congrFun (scratch_A c (grid0.coords t) (ms0_0 t) (hs0_0 t) (ms0_1 t) (hs0_1 t) (ms0_2 t) (hs0_2 t) scM0_0 (Memref.isWhole_whole _)
    ((hcond0_0 t).mpr h0) ((hcond0_1 t).mpr h1) (fun h => h2 ((hcond0_2 t).mp h))
    (iblk m c 0 t) (iblk m c 1 t)) j).trans ?_
  refine (blockstep_at m c t _ j).trans ?_
  congr 1
  refine (correction_apply _ _ _ j).trans ?_
  rw [reset_apply, corner_apply, corner_apply, block0_apply m c t, block1_apply m c t, ht]
  show (0 : EReal) + _ = (0 : EReal) + _
  rw [flat_zero]
  rfl

/-- THE INVARIANT: after grid point `n` the accumulator holds the specification's `acc n`. -/
theorem scratch_eq (c : Dev nD) : ∀ (n : ℕ) (h : n < cfg0.N) (j : S1x1.Idx),
    (outsAt0 m c n h).2 j = acc (argX m c) (argY m c) n
  | 0, h, j => step_A m c ⟨0, h⟩ rfl rfl (by show ¬(0 % 16 = 15); decide) j
  | n + 1, h, j => by
    have hN : n + 1 < 32 := lt_of_lt_of_eq h (show cfg0.N = 32 from N_0)
    show _ = if (n + 1) % 16 = 0 then (0 : EReal) + bsum (argX m c) (argY m c) (n + 1)
      else acc (argX m c) (argY m c) n + bsum (argX m c) (argY m c) (n + 1)
    by_cases h0 : (n + 1) % 16 = 0
    · rw [if_pos h0]
      exact step_D m c ⟨n + 1, h⟩ h0 (by dsimp only; omega) (by dsimp only; omega) j
    · rw [if_neg h0]
      by_cases h2 : (n + 1) % 16 = 15
      · refine (step_C m c ⟨n + 1, h⟩ h0 (by dsimp only; omega) h2 j).trans ?_
        show (outsAt0 m c n _).2 j + _ = _
        rw [scratch_eq c n _ j]
      · refine (step_B m c ⟨n + 1, h⟩ h0 (by dsimp only; omega) h2 j).trans ?_
        show (outsAt0 m c n _).2 j + _ = _
        rw [scratch_eq c n _ j]

/-- At a flushing point (the last of a half) the output block's entry is `acc` at that point. -/
theorem out_eq (c : Dev nD) (t : Fin cfg0.N) (h2 : t.val % 16 = 15) (i : S1x1x1.Idx) :
    (outsAt0 m c t.val t.isLt).1 i = acc (argX m c) (argY m c) t.val := by
  refine (out_at_C m c t (by omega) (by omega) h2 i (ix2 ⟨0, by decide⟩ ⟨0, by decide⟩)).trans ?_
  exact scratch_eq m c t.val t.isLt _

end Cert.Accumulate

end
-- ==== Proof.KernelValue.lean ====
/-
  The kernel program's result, read at the extended reals: the mean with the kernel's own grouping of the sum.
  The output array [2,1,1] is written back twice, at the last point of each half (t = 15 and t = 31); block t of the
  array is entry (t / 16, 0, 0), and what is written there is the accumulator after point t. The two blocks cover the
  array, so after the region entry (p, 0, 0) holds `acc (16 p + 15)`. The host then sums the array from zero — a sum over
  the two entries — and divides by N: the specification's `kernelTotal` divided by N.
-/
import proofs.«122837_j31714038514005_2_alg».proof.Proof.Accumulate
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem Idealize.ShloMosaic.ValueIdx Idealize.ShloMosaic.StableHlo
open Idealize.ShloMosaic.Pipeline (Dat)

namespace Cert.KernelValue

open Cert.KernelIdeal Cert.KernelIdeal.Gen Cert.SquaredError Cert.Accumulate

variable (m : (ℓ : Loc nD τ sig) → Buf (Elt Ideal) ℓ) (ρ : Dev nD → PrngReg)

/-- The output array after the region: entry (p, 0, 0) is the accumulator after the last point of half p. -/
def partials (c : Dev nD) : S2x1x1.Idx → EReal := fun i => acc (argX m c) (argY m c) (16 * (i 0).val + 15)

/-- The output's index map sends grid point t to block (t / 16, 0, 0) (decided once over the 32 points). -/
theorem index_w2 : ∀ t : Fin cfg0.N, win0_2.index t (0 : Fin 3) = t.val / 16 ∧ win0_2.index t (1 : Fin 3) = 0
    ∧ win0_2.index t (2 : Fin 3) = 0 :=
  (by decide +kernel : ∀ t : Fin grid0.N, win0_2.index t (0 : Fin 3) = t.val / 16 ∧ win0_2.index t (1 : Fin 3) = 0
    ∧ win0_2.index t (2 : Fin 3) = 0)

/-- What a flushing point writes back is its block of `partials`. -/
theorem flushed_eq (c : Dev nD) (t : Fin cfg0.N) (hf : (cfg0.win 2).flush t = true) :
    (dats m 0 c).flushed 2 t = ((cfg0.win 2).blk t).view.read (Elt Ideal) (partials m c) := by
  have h2 : t.val % 16 = 15 := (flush0_2 t).mp hf
  obtain ⟨e0, e1, e2⟩ := index_w2 t
  show (cfg0.win 2).cut (grid0.coords t) ((dats m 0 c).after 2 t) = _
  rw [after0_2]
  funext y
  rw [View.read_apply]
  have hy : (y 0).val < 1 := (y 0).isLt
  refine (out_eq m c t h2 y).trans ?_
  show acc (argX m c) (argY m c) t.val = acc (argX m c) (argY m c) (16 * (win0_2.index t (0 : Fin 3) * 1 + 1 * (y 0).val) + 15)
  refine congrArg (acc (argX m c) (argY m c)) ?_
  rw [e0]
  omega

/-- An index of the array is in point t's block iff each coordinate is in the block's range on its axis. -/
theorem mem_blk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v2).slice (win0_2.rect t)).set ↔ _
  rw [View.set_slice_whole, Rect.mem_set_unit]
  exact Iff.rfl

/-- Every entry of the array is in a flushing point's block: entry (p, 0, 0) in the block of t = 16 p + 15. -/
theorem cover (i : S2x1x1.Idx) : ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hN : cfg0.N = 32 := N_0
  have hlt : 16 * (i 0).val + 15 < cfg0.N := by rw [hN]; omega
  obtain ⟨e0, e1, e2⟩ := index_w2 ⟨16 * (i 0).val + 15, hlt⟩
  have e0' : win0_2.index ⟨16 * (i 0).val + 15, hlt⟩ (0 : Fin 3) = (16 * (i 0).val + 15) / 16 := e0
  refine ⟨⟨16 * (i 0).val + 15, hlt⟩, (flush0_2 _).mpr (by show (16 * (i 0).val + 15) % 16 = 15; omega), ?_⟩
  rw [mem_blk]
  intro a
  match a with
  | ⟨0, _⟩ =>
    show win0_2.index ⟨16 * (i 0).val + 15, hlt⟩ (0 : Fin 3) * 1 ≤ (i 0).val
      ∧ (i 0).val < win0_2.index ⟨16 * (i 0).val + 15, hlt⟩ (0 : Fin 3) * 1 + 1
    rw [e0']; omega
  | ⟨1, _⟩ =>
    show win0_2.index ⟨16 * (i 0).val + 15, hlt⟩ (1 : Fin 3) * 1 ≤ (i 1).val
      ∧ (i 1).val < win0_2.index ⟨16 * (i 0).val + 15, hlt⟩ (1 : Fin 3) * 1 + 1
    rw [e1]; omega
  | ⟨2, _⟩ =>
    show win0_2.index ⟨16 * (i 0).val + 15, hlt⟩ (2 : Fin 3) * 1 ≤ (i 2).val
      ∧ (i 2).val < win0_2.index ⟨16 * (i 0).val + 15, hlt⟩ (2 : Fin 3) * 1 + 1
    rw [e2]; omega

/-- So the output array ends holding `partials`. -/
theorem final (c : Dev nD) : (dats m 0 c).arrAt 2 cfg0.N = partials m c :=
  (dats m 0 c).arrAt_eq_of_cover 2 (partials m c) (flushed_eq m c) cover

/-- The host's operations after the region, on that array: the sum from zero, divided by N. -/
theorem tail_eq (c : Dev nD) : Pipeline.afterTail₀ cfgs (dats m) 0 (V0 m) [hostOps1] c main_v4
    = Host.divf (Host.reduceAdd (partials m c) (constant (F := Ideal) S_ .f32 0x00000000#32) reducesTo_S2x1x1_S_d0_1_2 h_S_)
        (constant (F := Ideal) S_ .f32 0x4C000000#32) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = partials m c := (Pipeline.withArrays_arr spec0 launch0.win.arr_inj c _ _ 2).trans (final m c)
  rw [e]

/-- The [2,1,1] array's entries are numbered by its first coordinate. -/
def halfEquiv : Fin 2 ≃ S2x1x1.Idx where
  toFun p := ix3 p (⟨0, by decide⟩ : Fin 1) (⟨0, by decide⟩ : Fin 1)
  invFun i := i 0
  left_inv _ := rfl
  right_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)

/-- A sum over the [2,1,1] array is the sum of its two entries. -/
theorem sum_halves (f : S2x1x1.Idx → EReal) :
    ∑ k : S2x1x1.Idx, f k = f (ix3 (⟨0, by decide⟩ : Fin 2) (⟨0, by decide⟩ : Fin 1) (⟨0, by decide⟩ : Fin 1))
      + f (ix3 (⟨1, by decide⟩ : Fin 2) (⟨0, by decide⟩ : Fin 1) (⟨0, by decide⟩ : Fin 1)) :=
  (Fintype.sum_equiv halfEquiv (fun p => f (halfEquiv p)) f (fun _ => rfl)).symm.trans (Fin.sum_univ_two _)

/-- The result's one entry: the kernel's total divided by N. -/
theorem tail_apply (c : Dev nD) (i : S_.Idx) :
    Host.divf (Host.reduceAdd (partials m c) (constant (F := Ideal) S_ .f32 0x00000000#32) reducesTo_S2x1x1_S_d0_1_2 h_S_)
        (constant (F := Ideal) S_ .f32 0x4C000000#32) i
      = Ideal.div (kernelTotal (argX m c) (argY m c)) (Ideal.ofBits .f32 0x4C000000#32) := by
  have hsum : Host.reduceAdd (partials m c) (constant (F := Ideal) S_ .f32 0x00000000#32) reducesTo_S2x1x1_S_d0_1_2 h_S_ i
      = Ideal.ofBits .f32 0x00000000#32 + ∑ k : S2x1x1.Idx, partials m c k := by
    simp only [Host.reduceAdd, Ideal.hostReduceAdd_def]
    exact Ideal.hostReduceAdd_total reducesTo_S2x1x1_S_d0_1_2 (fun b => b.elim0) _ _ i
  show Ideal.div (Host.reduceAdd (partials m c) (constant (F := Ideal) S_ .f32 0x00000000#32) reducesTo_S2x1x1_S_d0_1_2 h_S_ i)
    (Ideal.ofBits .f32 0x4C000000#32) = _
  rw [hsum, Ideal.ofBits_zero_f32, sum_halves]
  rfl

/-- THE KERNEL'S RUN, READ: every weakly fair execution ends with the result at the kernel's total divided by N and the
    arguments unchanged. -/
theorem run : θ_run defs (onTc (τ := τ) (main (F := Ideal))) ⟨m, fun _ => 0, ρ⟩ fun r => ∀ c : Dev nD,
      r.2.mem ((c.tc : Thread nD τ).loc main_v4)
        = (fun _ => Ideal.div (kernelTotal (argX m c) (argY m c)) (Ideal.ofBits .f32 0x4C000000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (Pipeline.mem_restRefs_of main_v4 (by decide) (by decide))).trans
        ((tail_eq m c).trans (funext (tail_apply m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelValue

end
-- ==== Proof.LibBlockedSum.lean ====
/-
  A sum over an axis of length nb · bs may be taken block by block: for each of the nb blocks in order, the sum over the
  bs entries of the block. Stated for any commutative additive monoid (the extended reals among them: re-grouping a sum
  needs no finiteness), with the entry of block k at offset d addressed as (bs · k + d) mod (nb · bs) so that the
  statement needs no bound proofs; within range the remainder is the number itself.
-/
import Mathlib.Algebra.BigOperators.Fin
import Mathlib.Algebra.BigOperators.Field
import Mathlib.Logic.Equiv.Fin.Basic
import Mathlib.Tactic.Ring

namespace Cert.Lib

open Finset

/-- The sum over the blocks, in order, of the sums over each block is the sum over the whole axis. -/
theorem sum_range_blocks {M : Type*} [AddCommMonoid M] (nb bs : ℕ) (hpos : 0 < nb * bs) (f : Fin (nb * bs) → M) :
    ∑ k ∈ Finset.range nb, ∑ d : Fin bs, f ⟨(bs * k + d.val) % (nb * bs), Nat.mod_lt _ hpos⟩ = ∑ j, f j := by
  rw [← Fin.sum_univ_eq_sum_range (fun k => ∑ d : Fin bs, f ⟨(bs * k + d.val) % (nb * bs), Nat.mod_lt _ hpos⟩) nb]
  rw [← Fintype.sum_prod_type']
  refine Fintype.sum_equiv finProdFinEquiv _ _ (fun ⟨k, d⟩ => ?_)
  congr 1
  apply Fin.ext
  show (bs * k.val + d.val) % (nb * bs) = d.val + bs * k.val
  have hlt : bs * k.val + d.val < nb * bs := by
    have h1 : bs * k.val + d.val < bs * k.val + bs := Nat.add_lt_add_left d.isLt _
    have h2 : bs * k.val + bs = bs * (k.val + 1) := by ring
    have h3 : bs * (k.val + 1) ≤ bs * nb := Nat.mul_le_mul_left bs k.isLt
    calc bs * k.val + d.val < bs * (k.val + 1) := h2 ▸ h1
      _ ≤ bs * nb := h3
      _ = nb * bs := Nat.mul_comm _ _
  rw [Nat.mod_eq_of_lt hlt, Nat.add_comm]

/-- The partial sums over the first blocks grow by one block at a time. -/
theorem sum_range_blocks_succ {M : Type*} [AddCommMonoid M] (g : ℕ → M) (k : ℕ) :
    ∑ j ∈ Finset.range (k + 1), g j = (∑ j ∈ Finset.range k, g j) + g k := Finset.sum_range_succ g k

end Cert.Lib
-- ==== Proof.Algebra.lean ====
/-
  The kernel's total is the reference's total.
  (1) The accumulator after the last point of the first half is the correction plus the first 16 block sums, and after the
      last point of the second half the last 16 block sums: induction on the point (adding zero changes nothing; extended-real
      addition is associative).
  (2) The 32 block sums together are the sum of the uncorrected squares over all positions: a sum over an axis of length
      nb · bs may be taken block by block, used for 262144 rows of 128 lanes and again for 32 blocks of 8192 rows; regrouping
      needs no finiteness.
  (3) Splitting position 0 off both sums, the uncorrected one is d₀² + R and the corrected one c² + R with the same rest R,
      and (c² - d₀²) + (d₀² + R) = c² + R because d₀² is a real number — the one place finiteness is used: d₀ = |x₀ - y₀| is
      real when x₀ and y₀ are.
-/
import proofs.«122837_j31714038514005_2_alg».proof.Proof.SquaredError
import proofs.«122837_j31714038514005_2_alg».proof.Proof.LibBlockedSum

noncomputable section

namespace Cert.SquaredError

open Finset Idealize.ShloMosaic Idealize.ShloMosaic.ValueIdx

variable (x y : SN.Idx → EReal)

/-! ## (1) The two partials -/

theorem acc_succ (n : ℕ) :
    acc x y (n + 1) = if (n + 1) % 16 = 0 then (0 : EReal) + bsum x y (n + 1) else acc x y n + bsum x y (n + 1) := rfl

/-- Within the first half the accumulator is the correction plus the block sums so far. -/
theorem acc_first_half : ∀ n, n < 16 → acc x y n = corr x y + ∑ t ∈ range (n + 1), bsum x y t
  | 0, _ => by
    show ((0 : EReal) + corr x y) + bsum x y 0 = _
    rw [zero_add, Finset.sum_range_one]
  | n + 1, h => by
    rw [acc_succ, if_neg (by omega), acc_first_half n (by omega), Finset.sum_range_succ _ (n + 1), add_assoc]

/-- Within the second half it is the block sums of that half so far. -/
theorem acc_second_half : ∀ n, n < 16 → acc x y (16 + n) = ∑ t ∈ range (n + 1), bsum x y (16 + t)
  | 0, _ => by
    show acc x y (15 + 1) = _
    rw [acc_succ, if_pos (by decide), zero_add, Finset.sum_range_one]
  | n + 1, h => by
    show acc x y ((16 + n) + 1) = _
    rw [acc_succ, if_neg (by omega), acc_second_half n (by omega), Finset.sum_range_succ _ (n + 1)]
    rfl

/-- The two partials together: the correction plus all 32 block sums. -/
theorem partials_eq : acc x y 15 + acc x y 31 = corr x y + ∑ t ∈ range 32, bsum x y t := by
  have h1 : acc x y 15 = corr x y + ∑ t ∈ range 16, bsum x y t := acc_first_half x y 15 (by decide)
  have h2 : acc x y 31 = ∑ t ∈ range 16, bsum x y (16 + t) := acc_second_half x y 15 (by decide)
  have h3 : ∑ t ∈ range 32, bsum x y t = ∑ t ∈ range 16, bsum x y t + ∑ t ∈ range 16, bsum x y (16 + t) :=
    Finset.sum_range_add (fun t => bsum x y t) 16 16
  rw [h1, h2, h3, add_assoc]

/-! ## (2) The block sums are the whole sum -/

/-- The positions are numbered by `Fin 33554432`. -/
def posEquiv : Fin 33554432 ≃ SN.Idx where
  toFun k := ix1 k
  invFun i := i 0
  left_inv _ := rfl
  right_inv i := (eq_ix1 i).symm

/-- A sum over all positions is the sum over their numbers. -/
theorem whole_sum_numbered (g : SN.Idx → EReal) : ∑ k : Fin 33554432, g (ix1 k) = ∑ i : SN.Idx, g i :=
  Fintype.sum_equiv posEquiv _ _ (fun _ => rfl)

/-- All numbers, as 262144 rows of 128 lanes. -/
theorem rows_eq (f : Fin 33554432 → EReal) :
    ∑ k ∈ range 262144, ∑ d : Fin 128, f ⟨(128 * k + d.val) % 33554432, Nat.mod_lt _ (by decide)⟩ = ∑ j, f j :=
  Cert.Lib.sum_range_blocks 262144 128 (by decide) f

/-- All rows, as 32 blocks of 8192 rows. -/
theorem blocks_of_rows (g : ℕ → EReal) :
    ∑ t ∈ range 32, ∑ r : Fin 8192, g ((8192 * t + r.val) % 262144) = ∑ k ∈ range 262144, g k := by
  have h := Cert.Lib.sum_range_blocks 32 8192 (by decide) (fun k' : Fin (32 * 8192) => g k'.val)
  rw [h]
  exact Fin.sum_univ_eq_sum_range g 262144

theorem blocks_eq : ∑ t ∈ range 32, bsum x y t = ∑ i : SN.Idx, sqd x y i := by
  have e1 := whole_sum_numbered (sqd x y)
  have e2 := rows_eq (fun k => sqd x y (ix1 k))
  have e3 := blocks_of_rows (fun k => ∑ d : Fin 128,
    sqd x y (ix1 (⟨(128 * k + d.val) % 33554432, Nat.mod_lt _ (by decide)⟩ : Fin 33554432)))
  refine Eq.trans ?_ (e3.trans (e2.trans e1))
  refine Finset.sum_congr rfl fun t ht => ?_
  have ht' : t < 32 := Finset.mem_range.mp ht
  unfold bsum
  refine Finset.sum_congr rfl fun r _ => ?_
  refine Finset.sum_congr rfl fun l _ => ?_
  have hr : r.val < 8192 := r.isLt
  have hl : l.val < 128 := l.isLt
  unfold flat
  refine congrArg (fun k : Fin 33554432 => sqd x y (ix1 k)) (Fin.ext ?_)
  show ((t * 8192 + r.val) * 128 + l.val) % 33554432 = (128 * ((8192 * t + r.val) % 262144) + l.val) % 33554432
  rw [Nat.mod_eq_of_lt (show 8192 * t + r.val < 262144 by omega)]
  exact congrArg (· % 33554432) (by omega)

/-! ## (3) Position 0 and the cancellation -/

/-- A real number subtracted and added back cancels, whatever the other terms. -/
theorem sub_add_cancel_real (A R : EReal) (b : ℝ) : (A - (b : EReal)) + ((b : EReal) + R) = A + R := by
  rw [sub_eq_add_neg, add_assoc, ← add_assoc (-(b : EReal)) (b : EReal) R, ← EReal.coe_neg, ← EReal.coe_add, neg_add_cancel,
    EReal.coe_zero, zero_add]

/-- The distance between two reals is a real. -/
theorem dist_real (a b : ℝ) : dist (a : EReal) (b : EReal) = ((max (a - b) (-(a - b)) : ℝ) : EReal) := by
  unfold dist
  rw [← EReal.coe_sub, ← EReal.coe_neg]
  rcases le_total (a - b) (-(a - b)) with h | h
  · rw [max_eq_right h, max_eq_right (EReal.coe_le_coe_iff.mpr h)]
  · rw [max_eq_left h, max_eq_left (EReal.coe_le_coe_iff.mpr h)]

/-- With x₀ and y₀ real, the correction plus the uncorrected squares is the corrected squares. -/
theorem corrected_sum_eq (hx : ∃ a : ℝ, x i0 = (a : EReal)) (hy : ∃ b : ℝ, y i0 = (b : EReal)) :
    corr x y + ∑ i : SN.Idx, sqd x y i = ∑ i : SN.Idx, sqd' x y i := by
  obtain ⟨a, ha⟩ := hx
  obtain ⟨b, hb⟩ := hy
  have hd : d0 x y * d0 x y = (((max (a - b) (-(a - b))) * (max (a - b) (-(a - b))) : ℝ) : EReal) := by
    unfold d0; rw [ha, hb, dist_real, ← EReal.coe_mul]
  rw [← Finset.add_sum_erase univ (sqd x y) (Finset.mem_univ i0), ← Finset.add_sum_erase univ (sqd' x y) (Finset.mem_univ i0)]
  have hrest : ∑ i ∈ univ.erase i0, sqd' x y i = ∑ i ∈ univ.erase i0, sqd x y i :=
    Finset.sum_congr rfl fun i hi => if_neg (Finset.ne_of_mem_erase hi)
  have h0 : sqd' x y i0 = corrected (d0 x y) * corrected (d0 x y) := if_pos rfl
  have h0' : sqd x y i0 = d0 x y * d0 x y := rfl
  rw [hrest, h0, h0']
  unfold corr
  rw [hd]
  exact sub_add_cancel_real _ _ _

/-- The kernel's total is the reference's. -/
theorem kernelTotal_eq (hx : ∃ a : ℝ, x i0 = (a : EReal)) (hy : ∃ b : ℝ, y i0 = (b : EReal)) :
    kernelTotal x y = total x y := by
  unfold kernelTotal total
  rw [partials_eq, blocks_eq, corrected_sum_eq x y hx hy]

end Cert.SquaredError

end
-- ==== Proof.FiniteInputs.lean ====
/-
  The precondition says every entry of both arguments has absolute value below +∞ (the conjunction of two "all entries"
  tests). On the extended reals max v (-v) < ⊤ excludes v = ⊤ and v = ⊥ (whose negation is ⊤), so every entry is a real
  number. The proof of the claim uses this at position 0 only.
-/
import proofs.«122837_j31714038514005_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.FiniteInputs

open Idealize.ShloMosaic Idealize.ShloMosaic.ValueIdx Cert.Pre_finite_inputs

variable [Cert.Pre_finite_inputs.Facts]

/-- A rank-0 array has one index. -/
instance : Subsingleton S_.Idx := ⟨fun a b => funext fun d => d.elim0⟩

/-- An extended real whose absolute value is below the f32 infinity is a real number. -/
theorem real_of_abs_lt_inf (v : EReal)
    (h : Ideal.cmp .olt (max v (-v)) (Ideal.ofBits .f32 0x7F800000#32) = 1#1) : ∃ a : ℝ, v = (a : EReal) := by
  have htop : Ideal.ofBits .f32 0x7F800000#32 = ⊤ := by simp [Ideal.ofBits, Ideal.ieee]
  rw [htop] at h
  have hlt : max v (-v) < ⊤ := by
    by_contra hn
    unfold Ideal.cmp at h
    simp [hn] at h
  induction v using EReal.rec with
  | bot => simp at hlt
  | coe a => exact ⟨a, rfl⟩
  | top => simp at hlt

/-- Under the precondition every entry of both arguments is a real number. -/
theorem real_of_pre (x y : FVec Ideal S33554432 .f32) (h : fn (F := Ideal) x y = fun _ => 1#1) (i : S33554432.Idx) :
    (∃ a : ℝ, x i = (a : EReal)) ∧ (∃ b : ℝ, y i = (b : EReal)) := by
  have h0 := congrFun h ix0
  dsimp only [fn] at h0
  obtain ⟨hx, hy⟩ := IntOp.andi_eq_one.1 h0
  have ex := Host.reduce_andi_all _ _ _ _ _ hx i
  have ey := Host.reduce_andi_all _ _ _ _ _ hy i
  exact ⟨real_of_abs_lt_inf _ ex, real_of_abs_lt_inf _ ey⟩

end Cert.FiniteInputs

end
-- ==== Proof.lean ====
/-
  Both programs compute, from x, y : f32[33554432], the mean over i of d' i · d' i, where d i = |x i - y i| and d' agrees
  with d except that d' 0 = d 0 · 0.8 when d 0 is one of 3, 4, 5, 6.

  The reference does so literally: it sets the corrected distance into d at position 0, squares, sums all 33554432
  entries from zero and divides by N = 2^25 (Proof/RefIsMean.lean).

  The kernel streams the two arrays as 32 blocks of [8192,128]; a [1,1] accumulator is reset at the first block of each
  half of the grid, receives once (at the very first block) the correction c · c - d 0 · d 0 with c the corrected d 0, and
  receives every block's sum of squared absolute differences; each half's accumulator is written out after its last
  block, and the host adds the two and divides by N (Proof/CasePieces.lean, PayloadReads.lean, InputBlocks.lean,
  Accumulate.lean, KernelValue.lean).

  The two totals agree because a sum may be regrouped block by block with no finiteness, and because
  (c · c - d 0 · d 0) + d 0 · d 0 = c · c when d 0 · d 0 is a real number — which the precondition gives: x 0 and y 0 are
  finite (Proof/Algebra.lean, Proof/FiniteInputs.lean). The division by N is the same word on both sides.

  The idealization rewrote nothing, so the kernel's idealization is its own text read at the extended reals. The frames
  are the generated frame runs; the reference's is its generated run with the result dropped.
-/
import proofs.«122837_j31714038514005_2_alg».proof.Defs
import proofs.«122837_j31714038514005_2_alg».proof.Proof.Gen.Kernel
import proofs.«122837_j31714038514005_2_alg».proof.Proof.Gen.Kernel.Frame
import proofs.«122837_j31714038514005_2_alg».proof.Proof.Gen.KernelIdeal
import proofs.«122837_j31714038514005_2_alg».proof.Proof.Gen.KernelIdeal.Frame
import proofs.«122837_j31714038514005_2_alg».proof.Proof.Gen.ReferenceIdeal
import proofs.«122837_j31714038514005_2_alg».proof.Proof.Gen.ReferenceIdeal.Run
import proofs.«122837_j31714038514005_2_alg».proof.Proof.Gen.ReferenceIdeal.Read
import proofs.«122837_j31714038514005_2_alg».proof.Proof.Gen.Pre_finite_inputs
import proofs.«122837_j31714038514005_2_alg».proof.Proof.RefIsMean
import proofs.«122837_j31714038514005_2_alg».proof.Proof.KernelValue
import proofs.«122837_j31714038514005_2_alg».proof.Proof.Algebra
import proofs.«122837_j31714038514005_2_alg».proof.Proof.FiniteInputs
import Idealize.ShloMosaic.Adequacy
import Idealize.ShloMosaic.Init

noncomputable section

namespace Cert.Proof

open Idealize.ShloMosaic Idealize.SL.Sem Cert.SquaredError

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the mean of the corrected squares of the (agreeing) arguments: the kernel's result is its own total
    divided by N, that total is the reference's when x 0 and y 0 are real, and the reference's result is the mean. -/
theorem algebraic : Cert.algebraic_KernelIdeal_ReferenceIdeal := by
  intro m ρ m' ρ' hpre hagree
  refine ⟨fun c => fun _ => mean (Cert.Accumulate.argX m c) (Cert.Accumulate.argY m c), ?_, ?_⟩
  · refine (θ_run Cert.KernelIdeal.defs _ _).mono (fun r h c => ?_) (Cert.KernelValue.run m ρ)
    obtain ⟨h1, h2, h3⟩ := h c
    refine ⟨h1.trans ?_, h2, h3⟩
    have hfin := Cert.FiniteInputs.real_of_pre _ _ (hpre c) i0
    funext _
    show Ideal.div (kernelTotal _ _) _ = Ideal.div (total _ _) _
    rw [kernelTotal_eq _ _ hfin.1 hfin.2]
  · refine (θ_run Cert.ReferenceIdeal.defs _ _).mono (fun _ h c => ⟨?_, (h c).2⟩)
      (Cert.ReferenceIdeal.Value.run (F := Ideal) m' ρ')
    rw [(h c).1, Cert.ReferenceIdeal.Read.val_main_v17_eq, Cert.RefIsMean.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
